-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S16x256 : Shape := ⟨2, ![16, 256]⟩
abbrev S256x16 : Shape := ⟨2, ![256, 16]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x32x32 .f32) (main_arg1 : FVec F S16x256 .f32) (main_arg2 : FVec F S256x16 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x32x32 : Shape := ⟨4, ![32, 256, 32, 32]⟩
abbrev S16x256 : Shape := ⟨2, ![16, 256]⟩
abbrev S256x16 : Shape := ⟨2, ![256, 16]⟩
abbrev S32x256x1024 : Shape := ⟨3, ![32, 256, 1024]⟩
abbrev S8x256x1024 : Shape := ⟨3, ![8, 256, 1024]⟩
abbrev S8x256 : Shape := ⟨2, ![8, 256]⟩
abbrev S8x16 : Shape := ⟨2, ![8, 16]⟩
abbrev S8x256x1 : Shape := ⟨3, ![8, 256, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x256x32x32, .f32⟩
  | .hbm, ⟨1, _⟩ => ⟨S16x256, .f32⟩
  | .hbm, ⟨2, _⟩ => ⟨S256x16, .f32⟩
  | .hbm, ⟨3, _⟩ => ⟨S32x256x1024, .f32⟩
  | .hbm, ⟨4, _⟩ => ⟨S32x256x1024, .f32⟩
  | .hbm, ⟨5, _⟩ => ⟨S32x256x32x32, .f32⟩
  | .local _ .vmem, ⟨0, _⟩ => ⟨S8x256x1024, .f32⟩
  | .local _ .vmem, ⟨1, _⟩ => ⟨S8x256x1024, .f32⟩
  | .local _ .vmem, ⟨2, _⟩ => ⟨S16x256, .f32⟩
  | .local _ .vmem, ⟨3, _⟩ => ⟨S256x16, .f32⟩
  | .local _ .vmem, ⟨4, _⟩ => ⟨S8x256x1024, .f32⟩
  | .local _ .vmem, ⟨5, _⟩ => ⟨S8x256x1024, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x32x32_S32x256x1024 : S32x256x32x32.ShapeCasts S32x256x1024
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  shapeCasts_S8x256_S8x256x1 : S8x256.ShapeCasts S8x256x1
  broadcasts_S8x256x1_S8x256x1024 : S8x256x1.Broadcasts S8x256x1024
  shapeCasts_S32x256x1024_S32x256x32x32 : S32x256x1024.ShapeCasts S32x256x32x32
  dot_S8x256_S16x256_S8x16_1_1_0_0_n_n_wf : DotDims.WF S8x256 S16x256 S8x16 [1] [1] [0] [0] [] []
  dot_S8x16_S256x16_S8x256_1_1_0_0_n_n_wf : DotDims.WF S8x16 S256x16 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S32x256x1024.size a
  hwx0_0 : ∀ i : grid0.Coords, EltTy.bits .f32 = 32 ∨ (Rect.block (s := S32x256x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1024.size a ≤ S32x256x1024.size a
  hwx0_3 : ∀ i : grid0.Coords, EltTy.bits .f32 = 32 ∨ (Rect.block (s := S32x256x1024) S8x256x1024.size (cc0_transform_3 i) (hinb0_3 i)).WholeWords (EltTy.packing .f32)

variable [Facts₀]

def dot_S8x256_S16x256_S8x16_1_1_0_0_n_n : DotDims S8x256 S16x256 S8x16 where
  lhsContracting := [1]
  rhsContracting := [1]
  lhsNonContracting := [0]
  rhsNonContracting := [0]
  lhsBatch := []
  rhsBatch := []
  wf := dot_S8x256_S16x256_S8x16_1_1_0_0_n_n_wf
def dot_S8x16_S256x16_S8x256_1_1_0_0_n_n : DotDims S8x16 S256x16 S8x256 where
  lhsContracting := [1]
  rhsContracting := [1]
  lhsNonContracting := [0]
  rhsNonContracting := [0]
  lhsBatch := []
  rhsBatch := []
  wf := dot_S8x16_S256x16_S8x256_1_1_0_0_n_n_wf

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S16x256 : Shape := ⟨2, ![16, 256]⟩
abbrev S256x16 : Shape := ⟨2, ![256, 16]⟩
abbrev S32x256x1024 : Shape := ⟨3, ![32, 256, 1024]⟩
abbrev S32x256x1 : Shape := ⟨3, ![32, 256, 1]⟩
abbrev S1x256x1024 : Shape := ⟨3, ![1, 256, 1024]⟩
abbrev S1x256x1 : Shape := ⟨3, ![1, 256, 1]⟩
abbrev S1x256 : Shape := ⟨2, ![1, 256]⟩
abbrev S32x256 : Shape := ⟨2, ![32, 256]⟩
abbrev S32x16 : Shape := ⟨2, ![32, 16]⟩

abbrev nBuf : Space → Nat
  | .hbm => 10
  | .vmem => 14
  | .smem => 0
  | _ => 0

abbrev bufTy : (tb : Table) → Fin (tcTables nBuf tb) → BufTy
  | .hbm, ⟨0, _⟩ => ⟨S32x256x32x32, .f32⟩
  | .hbm, ⟨1, _⟩ => ⟨S16x256, .f32⟩
  | .hbm, ⟨2, _⟩ => ⟨S256x16, .f32⟩
  | .hbm, ⟨3, _⟩ => ⟨S32x256x1024, .f32⟩
  | .hbm, ⟨4, _⟩ => ⟨S32x256x1, .f32⟩
  | .hbm, ⟨5, _⟩ => ⟨S256x16, .f32⟩
  | .hbm, ⟨6, _⟩ => ⟨S16x256, .f32⟩
  | .hbm, ⟨7, _⟩ => ⟨S32x256x1, .f32⟩
  | .hbm, ⟨8, _⟩ => ⟨S32x256x1024, .f32⟩
  | .hbm, ⟨9, _⟩ => ⟨S32x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1, .f32⟩
  | .local _ .vmem, ⟨3, _⟩ => ⟨S1x256x1, .f32⟩
  | .local _ .vmem, ⟨4, _⟩ => ⟨S32x256x1, .f32⟩
  | .local _ .vmem, ⟨5, _⟩ => ⟨S256x16, .f32⟩
  | .local _ .vmem, ⟨6, _⟩ => ⟨S16x256, .f32⟩
  | .local _ .vmem, ⟨7, _⟩ => ⟨S32x256x1, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1, .f32⟩
  | .local _ .vmem, ⟨11, _⟩ => ⟨S1x256x1, .f32⟩
  | .local _ .vmem, ⟨12, _⟩ => ⟨S1x256x1024, .f32⟩
  | .local _ .vmem, ⟨13, _⟩ => ⟨S1x256x1024, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S32x256x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![32, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S32x256x32x32_S32x256x1024 : S32x256x32x32.ShapeCasts S32x256x1024
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  reduces_S1x256x1024_S1x256 : S1x256x1024.Reduces [2] S1x256
  shapeCasts_S1x256_S1x256x1 : S1x256.ShapeCasts S1x256x1
  transposes_S16x256_S256x16_1_0 : S16x256.Transposes [1, 0] S256x16
  transposes_S256x16_S16x256_1_0 : S256x16.Transposes [1, 0] S16x256
  inb_S32x256x1_S32x256x1_0_0_0 : ∀ a, (![0, 0, 0] : Fin 3 → Nat) a + S32x256x1.size a ≤ S32x256x1.size a
  h_S32x256x1 : 0 < S32x256x1.numel
  shapeCasts_S32x256x1_S32x256x1 : S32x256x1.ShapeCasts S32x256x1
  shapeCasts_S32x256x1_S32x256 : S32x256x1.ShapeCasts S32x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S32x256_S32x256x1 : S32x256.ShapeCasts S32x256x1
  broadcasts_S1x256x1_S1x256x1024 : S1x256x1.Broadcasts S1x256x1024
  shapeCasts_S32x256x1024_S32x256x32x32 : S32x256x1024.ShapeCasts S32x256x32x32
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S32x256x1.size a
  hwx0_1 : ∀ i : grid0.Coords, EltTy.bits .f32 = 32 ∨ (Rect.block (s := S32x256x1) S1x256x1.size (cc0_transform_1 i) (hinb0_1 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S32x256x1024.size a
  hwx2_0 : ∀ i : grid2.Coords, EltTy.bits .f32 = 32 ∨ (Rect.block (s := S32x256x1024) S1x256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x1.size a ≤ S32x256x1.size a
  hwx2_1 : ∀ i : grid2.Coords, EltTy.bits .f32 = 32 ∨ (Rect.block (s := S32x256x1) S1x256x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x1024.size a ≤ S32x256x1024.size a
  hwx2_2 : ∀ i : grid2.Coords, EltTy.bits .f32 = 32 ∨ (Rect.block (s := S32x256x1024) S1x256x1024.size (cc2_transform_2 i) (hinb2_2 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_v1) false false (stage1_0 0) (sem1_0 0) (Memref.isWhole_whole _) (hstage1_0 0)

abbrev win1_1 : Pipeline.Window sig grid1 :=
  Pipeline.Window.whole (Memref.whole main_v2) false false (stage1_1 0) (sem1_1 0) (Memref.isWhole_whole _) (hstage1_1 0)

abbrev win1_2 : Pipeline.Window sig grid1 :=
  Pipeline.Window.whole (Memref.whole main_v3) false false (stage1_2 0) (sem1_2 0) (Memref.isWhole_whole _) (hstage1_2 0)

abbrev win1_3 : Pipeline.Window sig grid1 :=
  Pipeline.Window.whole (Memref.whole main_v4) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== Proof.Spec.lean ====
/-
  The squeeze-and-excitation block as ONE function on the extended reals. For x : [32, 256, 1024] (batch, channel, position),
  w1 : [16, 256] and w2 : [256, 16]:
    rowSum x b k      = Σ_s x[b, k, s]                                  -- a channel's sum over its 1024 positions
    hidden x w1 b j   = max (Σ_k (rowSum x b k · 2⁻¹⁰) · w1[j, k]) 0     -- the mean (2⁻¹⁰ = 1/1024 exactly), first layer, relu
    gate x w1 w2 b c  = logistic (Σ_j hidden x w1 b j · w2[c, j])        -- second layer, sigmoid
    out3 x w1 w2 [b, c, s] = x[b, c, s] · gate x w1 w2 b c               -- every position of a channel scaled by its gate
  Both programs compute `out3` of the argument viewed [32, 256, 1024] and view the result [32, 256, 32, 32] again (`out4`).
  The gate of entry [b, c, s] depends on batch row b of x only: that is why a program may cut the batch into slabs.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev X4 : Shape := ⟨4, ![32, 256, 32, 32]⟩
abbrev X3 : Shape := ⟨3, ![32, 256, 1024]⟩
abbrev A1 : Shape := ⟨2, ![16, 256]⟩
abbrev A2 : Shape := ⟨2, ![256, 16]⟩

/-- The word both programs scale a channel's sum by: 2⁻¹⁰, the reciprocal of the 1024 positions. Never evaluated: the same
    word stands on both sides. -/
def inv : EReal := Ideal.ofBits .f32 0x3A800000#32
/-- The zero word the relu compares against. -/
def zero : EReal := Ideal.ofBits .f32 0x00000000#32

/-- A channel's sum over its positions. -/
def rowSum (x : X3.Idx → EReal) (b : Fin 32) (k : Fin 256) : EReal := ∑ s : Fin 1024, x (ix3 b k s)

/-- The first layer on the channel means, then relu. -/
def hidden (x : X3.Idx → EReal) (w1 : A1.Idx → EReal) (b : Fin 32) (j : Fin 16) : EReal :=
  max (∑ k : Fin 256, (rowSum x b k * inv) * w1 (ix2 j k)) zero

/-- The second layer, then the logistic function: the gate of channel `c` in batch row `b`. -/
def gate (x : X3.Idx → EReal) (w1 : A1.Idx → EReal) (w2 : A2.Idx → EReal) (b : Fin 32) (c : Fin 256) : EReal :=
  Ideal.logistic (∑ j : Fin 16, hidden x w1 b j * w2 (ix2 c j))

/-- The block on the [32, 256, 1024] view: each entry times its channel's gate. -/
def out3 (x : X3.Idx → EReal) (w1 : A1.Idx → EReal) (w2 : A2.Idx → EReal) : X3.Idx → EReal :=
  fun i => x i * gate x w1 w2 (i 0) (i 1)

/-- The block on the [32, 256, 32, 32] argument: view it [32, 256, 1024], apply `out3`, view the result [32, 256, 32, 32]. -/
def out4 (h43 : X4.ShapeCasts X3) (h34 : X3.ShapeCasts X4) (x : X4.Idx → EReal) (w1 : A1.Idx → EReal) (w2 : A2.Idx → EReal) :
    X4.Idx → EReal :=
  shapeCast X4 (out3 (shapeCast X3 x h43) w1 w2) h34

/-- The gate reads batch row `b` of `x` only. -/
theorem gate_congr (x x' : X3.Idx → EReal) (w1 : A1.Idx → EReal) (w2 : A2.Idx → EReal) (b : Fin 32) (c : Fin 256)
    (h : ∀ k s, x (ix3 b k s) = x' (ix3 b k s)) : gate x w1 w2 b c = gate x' w1 w2 b c := by
  unfold gate hidden rowSum
  simp only [h]

end Cert.Spec

end
-- ==== Proof.KPay.lean ====
/-
  The body's stored value, read at one entry of its [8, 256, 1024] block. With x the loaded slab of eight batch rows,
  w1 : [16, 256] and w2 : [256, 16] the two loaded weight matrices, the value at row p, channel c, position s is
      x[p, c, s] · logistic (Σ_j max (Σ_k ((Σ_s' x[p, k, s']) · 2⁻¹⁰) · w1[j, k]) 0 · w2[c, j]).
  Each non-pointwise operation is read at an index by one lemma over literal shapes: the sum over the positions, the
  two matrix products (each contracts the SECOND axis of both of its operands, so the second operand is read
  transposed), the view of an [8, 256] array as [8, 256, 1] and its broadcast along the unit axis.
-/
import proofs.«100125_g2000005796405708_pallasbulk_332_6_alg».proof.Proof.Spec
import proofs.«100125_g2000005796405708_pallasbulk_332_6_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- The sum over the last axis of an [8, 256, 1024] array, at row p and channel k: the sum over the 1024 positions. -/
theorem rowsum_apply (x : FVec Ideal S8x256x1024 .f32) (h : S8x256x1024.Reduces [2] S8x256) (hφ : FKind.Formats .f32)
    (hacc : (0x00000000#32 : BitVec 32) = FKind.add.neutral .f32 hφ) (p : Fin 8) (k : Fin 256) :
    multiReduction (F := Ideal) .add [2] S8x256 x 0x00000000#32 h hφ hacc (ix2 p k) = ∑ s' : Fin 1024, x (ix3 p k s') := by
  refine (Ideal.multiReduction_add_single x _ h hφ hacc (ix2 p k)).trans ?_
  refine Finset.sum_congr rfl fun s' _ => congrArg x ?_
  funext a; apply Fin.ext
  match a with
  | ⟨0, _⟩ => rfl
  | ⟨1, _⟩ => rfl
  | ⟨2, _⟩ => rfl

/-- The first product, [8, 256] by [16, 256] over the shared axis of 256 channels, into the zero array: entry (p, j)
    is Σ_k A[p, k] · B[j, k]. The product's contraction index is a one-coordinate multi-index; the sum is re-indexed
    by that coordinate. -/
theorem mm1_apply (A : FVec Ideal S8x256 .f32) (B : FVec Ideal S16x256 .f32) (p : Fin 8) (j : Fin 16) :
    matmul dot_S8x256_S16x256_S8x16_1_1_0_0_n_n none A B (constant S8x16 .f32 0x00000000#32) (ix2 p j)
      = ∑ k : Fin 256, A (ix2 p k) * B (ix2 j k) := by
  show FloatOps.matmul _ none A B _ (ix2 p j) = _
  rw [Ideal.matmul_constant_zero_apply,
    ← Equiv.sum_comp (contrEquiv1 dot_S8x256_S16x256_S8x16_1_1_0_0_n_n 256 rfl rfl).symm]
  refine Finset.sum_congr rfl fun k _ => ?_
  have ck := contrEquiv1_symm_val dot_S8x256_S16x256_S8x16_1_1_0_0_n_n 256 rfl rfl k
  have l : dot_S8x256_S16x256_S8x16_1_1_0_0_n_n.lhsIdx (ix2 p j) ((contrEquiv1 _ 256 rfl rfl).symm k) = ix2 p k := by
    funext ax; apply Fin.ext
    match ax with
    | ⟨0, _⟩ => simp [DotDims.lhsIdx, dot_S8x256_S16x256_S8x16_1_1_0_0_n_n]; rfl
    | ⟨1, _⟩ => simp [DotDims.lhsIdx, dot_S8x256_S16x256_S8x16_1_1_0_0_n_n]; exact ck
  have r : dot_S8x256_S16x256_S8x16_1_1_0_0_n_n.rhsIdx (ix2 p j) ((contrEquiv1 _ 256 rfl rfl).symm k) = ix2 j k := by
    funext ax; apply Fin.ext
    match ax with
    | ⟨0, _⟩ => simp [DotDims.rhsIdx, dot_S8x256_S16x256_S8x16_1_1_0_0_n_n]; rfl
    | ⟨1, _⟩ => simp [DotDims.rhsIdx, dot_S8x256_S16x256_S8x16_1_1_0_0_n_n]; exact ck
  rw [l, r]

/-- The second product, [8, 16] by [256, 16] over the shared axis of 16 hidden units, into the zero array: entry
    (p, c) is Σ_j A[p, j] · B[c, j]. -/
theorem mm2_apply (A : FVec Ideal S8x16 .f32) (B : FVec Ideal S256x16 .f32) (p : Fin 8) (c : Fin 256) :
    matmul dot_S8x16_S256x16_S8x256_1_1_0_0_n_n none A B (constant S8x256 .f32 0x00000000#32) (ix2 p c)
      = ∑ j : Fin 16, A (ix2 p j) * B (ix2 c j) := by
  show FloatOps.matmul _ none A B _ (ix2 p c) = _
  rw [Ideal.matmul_constant_zero_apply,
    ← Equiv.sum_comp (contrEquiv1 dot_S8x16_S256x16_S8x256_1_1_0_0_n_n 16 rfl rfl).symm]
  refine Finset.sum_congr rfl fun j _ => ?_
  have cj := contrEquiv1_symm_val dot_S8x16_S256x16_S8x256_1_1_0_0_n_n 16 rfl rfl j
  have l : dot_S8x16_S256x16_S8x256_1_1_0_0_n_n.lhsIdx (ix2 p c) ((contrEquiv1 _ 16 rfl rfl).symm j) = ix2 p j := by
    funext ax; apply Fin.ext
    match ax with
    | ⟨0, _⟩ => simp [DotDims.lhsIdx, dot_S8x16_S256x16_S8x256_1_1_0_0_n_n]; rfl
    | ⟨1, _⟩ => simp [DotDims.lhsIdx, dot_S8x16_S256x16_S8x256_1_1_0_0_n_n]; exact cj
  have r : dot_S8x16_S256x16_S8x256_1_1_0_0_n_n.rhsIdx (ix2 p c) ((contrEquiv1 _ 16 rfl rfl).symm j) = ix2 c j := by
    funext ax; apply Fin.ext
    match ax with
    | ⟨0, _⟩ => simp [DotDims.rhsIdx, dot_S8x16_S256x16_S8x256_1_1_0_0_n_n]; rfl
    | ⟨1, _⟩ => simp [DotDims.rhsIdx, dot_S8x16_S256x16_S8x256_1_1_0_0_n_n]; exact cj
  rw [l, r]

/-- An [a, b] array viewed [a, b, 1] reads, at (i, j, u), the operand at (i, j): both have row-major position i·b + j. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast along its unit axis to [a, b, n] reads, at (i, j, s), the operand at (i, j, 0). -/
theorem broadcastTo_ab1_abn_apply {α : Type} {a b n : ℕ} (v : (⟨3, ![a, b, 1]⟩ : Shape).Idx → α)
    (h : (⟨3, ![a, b, 1]⟩ : Shape).Broadcasts ⟨3, ![a, b, n]⟩) (i : Fin a) (j : Fin b) (s : Fin n) :
    broadcastTo ⟨3, ![a, b, n]⟩ v h (ix3 i j s) = v (ix3 i j (0 : Fin 1)) := by
  refine broadcastTo_apply v h (ix3 i j s) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- THE STORED VALUE at row p, channel c, position s of the block: the loaded entry times the gate of (p, c) — the
    logistic of the second layer over the relu of the first layer over the scaled channel sums of row p. Only row p of
    the loaded slab is read. -/
theorem pay_apply (v0 : Vec Ideal S8x256x1024 .f32) (v5 : Vec Ideal S16x256 .f32) (v9 : Vec Ideal S256x16 .f32)
    (p : Fin 8) (c : Fin 256) (s : Fin 1024) :
    k0_pay1 (F := Ideal) v0 v5 v9 (ix3 p c s)
      = v0 (ix3 p c s) * Ideal.logistic (∑ j : Fin 16,
          max (∑ k : Fin 256, ((∑ s' : Fin 1024, v0 (ix3 p k s')) * Spec.inv) * v5 (ix2 j k)) Spec.zero * v9 (ix2 c j)) := by
  unfold k0_pay1
  dsimp only
  have e1 : shapeCast S8x256x1024 v0 shapeCasts_S8x256x1024_S8x256x1024 = v0 := shapeCast_self v0 _
  rw [e1]
  refine (mulf_apply _ _ _).trans ?_
  refine congrArg (v0 (ix3 p c s) * ·) ?_
  refine (broadcastTo_ab1_abn_apply _ _ p c s).trans ?_
  refine (shapeCast_ab_ab1_apply _ _ p c 0).trans ?_
  show Ideal.logistic (matmul (F := Ideal) _ none _ v9 _ (ix2 p c)) = _
  refine congrArg Ideal.logistic ?_
  refine (mm2_apply _ v9 p c).trans ?_
  refine Finset.sum_congr rfl fun j _ => congrArg (· * v9 (ix2 c j)) ?_
  show max (matmul (F := Ideal) _ none _ v5 _ (ix2 p j)) (Ideal.ofBits .f32 0x00000000#32) = max _ Spec.zero
  refine congrArg (max · Spec.zero) ?_
  refine (mm1_apply _ v5 p j).trans ?_
  refine Finset.sum_congr rfl fun k _ => congrArg (· * v5 (ix2 j k)) ?_
  show multiReduction (F := Ideal) .add [2] S8x256 v0 _ _ _ _ (ix2 p k) * Ideal.ofBits .f32 0x3A800000#32 = _ * Spec.inv
  refine congrArg (· * Spec.inv) ?_
  exact rowsum_apply v0 _ _ _ p k

end Cert.KernelIdeal.Hand

end
-- ==== Proof.KBlocks.lean ====
/-
  From the blocks to the array. The call runs on a grid of four points; point t stages batch rows 8t … 8t + 7 of the
  [32, 256, 1024] operand (all channels, all positions) together with both weight matrices whole, and writes back the
  same rows of the result. The gate of an entry reads only the entry's own batch row, and that row lies inside the
  staged slab, so what point t writes back is rows 8t … 8t + 7 of the one whole-array function `Spec.out3` of the
  operands as the call finds them. Batch row r is written by point r / 8, so the four slabs cover the array and the
  result array ends holding `Spec.out3`.
-/
import proofs.«100125_g2000005796405708_pallasbulk_332_6_alg».proof.Proof.KPay
import proofs.«100125_g2000005796405708_pallasbulk_332_6_alg».proof.Proof.Gen.KernelIdeal.Frame
import Idealize.ShloMosaic.Lib.Pipeline.Value

noncomputable section

open scoped BigOperators

namespace Cert.KernelIdeal.Hand

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at point t: the operand's and the result's slab is number t along the batch axis and number 0
    along the other two; the weight matrices' one block is number (0, 0). Decided over the four points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The stored value of a slab that holds batch rows 8t … 8t + 7 of X, computed with the weights w1 and w2, is
    `Spec.out3 X w1 w2` at the same entry of X: the entry itself is read from the slab, and so is every entry of its
    batch row, which is all the gate reads. -/
theorem pay_block (X : Spec.X3.Idx → EReal) (w1 : Spec.A1.Idx → EReal) (w2 : Spec.A2.Idx → EReal) (t : Nat)
    (v0 : Vec Ideal S8x256x1024 .f32) (v5 : Vec Ideal S16x256 .f32) (v9 : Vec Ideal S256x16 .f32)
    (h0 : ∀ (y : S8x256x1024.Idx) (i : S32x256x1024.Idx), (i 0).val = t * 8 + (y 0).val → (i 1).val = (y 1).val →
      (i 2).val = (y 2).val → v0 y = X i)
    (h5 : v5 = w1) (h9 : v9 = w2)
    (y : S8x256x1024.Idx) (i : S32x256x1024.Idx) (hi0 : (i 0).val = t * 8 + (y 0).val) (hi1 : (i 1).val = (y 1).val)
    (hi2 : (i 2).val = (y 2).val) :
    k0_pay1 (F := Ideal) v0 v5 v9 y = Spec.out3 X w1 w2 i := by
  subst h5 h9
  obtain ⟨p, c, s, rfl⟩ : ∃ (p : Fin 8) (c : Fin 256) (s : Fin 1024), y = ix3 p c s := ⟨y 0, y 1, y 2, eq_ix3 y⟩
  obtain ⟨b, c', s', rfl⟩ : ∃ (b : Fin 32) (c' : Fin 256) (s' : Fin 1024), i = ix3 b c' s' := ⟨i 0, i 1, i 2, eq_ix3 i⟩
  obtain rfl : c' = c := Fin.ext hi1
  obtain rfl : s' = s := Fin.ext hi2
  rw [pay_apply]
  have hx : ∀ (k : Fin 256) (s : Fin 1024), v0 (ix3 p k s) = X (ix3 b k s) := fun k s => h0 _ _ hi0 rfl rfl
  show _ = X (ix3 b c' s') * Ideal.logistic (∑ j : Fin 16,
    max (∑ k : Fin 256, ((∑ s : Fin 1024, X (ix3 b k s)) * Spec.inv) * v5 (ix2 j k)) Spec.zero * v9 (ix2 c' j))
  simp only [hx]

/-- The operand's slab at point t, at (p, k, s), is the operand as the call finds it at (8t + p, k, s). -/
theorem iblk0_apply (c : Dev nD) (t : Fin cfg0.N) (y : S8x256x1024.Idx) (i : S32x256x1024.Idx)
    (h0 : (i 0).val = t.val * 8 + (y 0).val) (h1 : (i 1).val = (y 1).val) (h2 : (i 2).val = (y 2).val) :
    (iblk m c 0 t : Vec Ideal S8x256x1024 .f32) y = (V m c main_v0 : S32x256x1024.Idx → EReal) i := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 8 + 1 * (y 0).val = (i 0).val; rw [e0, h0]; omega
  | ⟨1, _⟩ => show win0_0.index t 1 * 256 + 1 * (y 1).val = (i 1).val; rw [e1, h1]; omega
  | ⟨2, _⟩ => show win0_0.index t 2 * 1024 + 1 * (y 2).val = (i 2).val; rw [e2, h2]; omega

/-- The first weight matrix's block at every point is the whole matrix. -/
theorem iblk1_eq (c : Dev nD) (t : Fin cfg0.N) :
    (iblk m c 1 t : Vec Ideal S16x256 .f32) = (V m c main_arg1 : S16x256.Idx → EReal) := by
  obtain ⟨-, -, -, e0, e1, -⟩ := idx_facts t
  funext y
  unfold iblk
  rw [View.read_apply]
  show V m c main_arg1 _ = V m c main_arg1 y
  congr 1
  funext a
  apply Fin.ext
  match a with
  | ⟨0, _⟩ => show win0_1.index t 0 * 16 + 1 * (y 0).val = (y 0).val; rw [e0]; omega
  | ⟨1, _⟩ => show win0_1.index t 1 * 256 + 1 * (y 1).val = (y 1).val; rw [e1]; omega

/-- The second weight matrix's block at every point is the whole matrix. -/
theorem iblk2_eq (c : Dev nD) (t : Fin cfg0.N) :
    (iblk m c 2 t : Vec Ideal S256x16 .f32) = (V m c main_arg2 : S256x16.Idx → EReal) := by
  obtain ⟨-, -, -, -, -, e0, e1, -⟩ := idx_facts t
  funext y
  unfold iblk
  rw [View.read_apply]
  show V m c main_arg2 _ = V m c main_arg2 y
  congr 1
  funext a
  apply Fin.ext
  match a with
  | ⟨0, _⟩ => show win0_2.index t 0 * 256 + 1 * (y 0).val = (y 0).val; rw [e0]; omega
  | ⟨1, _⟩ => show win0_2.index t 1 * 16 + 1 * (y 1).val = (y 1).val; rw [e1]; omega

/-- WHAT POINT t WRITES BACK is slab t of `Spec.out3` of the three arrays as the call finds them: the body's one
    store covers its buffer, its value at an entry is `pay_block`'s, and entry (p, c, s) of slab t is entry
    (8t + p, c, s) of the array. -/
theorem flushed_eq (c : Dev nD) (t : Fin cfg0.N) :
    (dats m 0 c).flushed 3 t = ((cfg0.win 3).blk t).view.read (Elt Ideal)
      (Spec.out3 (V m c main_v0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S8x256x1024) hz3, View.ld_unit_zero (S := S16x256) hz2, View.ld_unit_zero (S := S256x16) hz2]
  obtain ⟨-, -, -, -, -, -, -, e0, e1, e2⟩ := idx_facts t
  funext j
  refine pay_block (V m c main_v0) (V m c main_arg1) (V m c main_arg2) t.val (iblk m c 0 t) (iblk m c 1 t) (iblk m c 2 t)
    (iblk0_apply m c t) (iblk1_eq m c t) (iblk2_eq m c t) j (((cfg0.win 3).blk t).view.emb j) ?_ ?_ ?_
  · show win0_3.index t 0 * 8 + 1 * (j 0).val = t.val * 8 + (j 0).val
    rw [e0]; omega
  · show win0_3.index t 1 * 256 + 1 * (j 1).val = (j 1).val
    rw [e1]; omega
  · show win0_3.index t 2 * 1024 + 1 * (j 2).val = (j 2).val
    rw [e2]; omega

/-- An index of the [32, 256, 1024] array is in point t's slab iff each coordinate is in the slab's range on its axis. -/
theorem mem_blk (t : Fin cfg0.N) (i : S32x256x1024.Idx) :
    i ∈ ((cfg0.win 3).blk t).view.set ↔ ∀ a : Fin 3, win0_3.index t a * S8x256x1024.size a ≤ (i a).val
      ∧ (i a).val < win0_3.index t a * S8x256x1024.size a + S8x256x1024.size a := by
  show i ∈ ((View.whole main_v1).slice (win0_3.rect t)).set ↔ _
  rw [View.set_slice_whole, Rect.mem_set_unit]
  exact Iff.rfl

/-- Every index of the array is in some point's slab: batch row r is in the slab of point r / 8, and every point
    writes back. -/
theorem cover (i : S32x256x1024.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 1024 := (i 2).isLt
  have hN : grid0.N = 4 := N_0
  have ht : (i 0).val / 8 < grid0.N := by rw [hN]; omega
  obtain ⟨-, -, -, -, -, -, -, e0, e1, e2⟩ := idx_facts ⟨(i 0).val / 8, ht⟩
  refine ⟨⟨(i 0).val / 8, ht⟩, flush0_3 _, ?_⟩
  rw [mem_blk]
  intro a
  match a with
  | ⟨0, _⟩ =>
    show win0_3.index ⟨(i 0).val / 8, ht⟩ 0 * 8 ≤ (i 0).val ∧ (i 0).val < win0_3.index ⟨(i 0).val / 8, ht⟩ 0 * 8 + 8
    rw [e0]; show (i 0).val / 8 * 8 ≤ (i 0).val ∧ (i 0).val < (i 0).val / 8 * 8 + 8; omega
  | ⟨1, _⟩ =>
    show win0_3.index ⟨(i 0).val / 8, ht⟩ 1 * 256 ≤ (i 1).val ∧ (i 1).val < win0_3.index ⟨(i 0).val / 8, ht⟩ 1 * 256 + 256
    rw [e1]; omega
  | ⟨2, _⟩ =>
    show win0_3.index ⟨(i 0).val / 8, ht⟩ 2 * 1024 ≤ (i 2).val ∧ (i 2).val < win0_3.index ⟨(i 0).val / 8, ht⟩ 2 * 1024 + 1024
    rw [e2]; omega

/-- THE RESULT ARRAY after the four points: `Spec.out3` of the operand and the two weight matrices as the call finds
    them. -/
theorem final (c : Dev nD) :
    (dats m 0 c).arrAt 3 cfg0.N = Spec.out3 (V m c main_v0) (V m c main_arg1) (V m c main_arg2) :=
  (dats m 0 c).arrAt_eq_of_cover 3 (Spec.out3 (V m c main_v0) (V m c main_arg1) (V m c main_arg2))
    (fun t _ => flushed_eq m c t) cover

end Cert.KernelIdeal.Hand

end
-- ==== Proof.KHost.lean ====
/-
  The two host operations around the call. Before it, the [32, 256, 32, 32] argument is viewed [32, 256, 1024]: that
  view is what the call's first operand holds when the call starts. After it, the call's [32, 256, 1024] result is
  viewed [32, 256, 32, 32] again: that view is the program's result. Neither view is opened at an index.
-/
import proofs.«100125_g2000005796405708_pallasbulk_332_6_alg».proof.Proof.Gen.KernelIdeal.Frame
import Idealize.ShloMosaic.Lib.Tactic
import Idealize.ShloMosaic.PureOps.Ideal

noncomputable section

namespace Cert.KernelIdeal.Hand

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The call's first operand, as the call finds it, is the argument viewed [32, 256, 1024]. -/
theorem V_main_v0 (c : Dev nD) :
    (V m c main_v0 : S32x256x1024.Idx → EReal)
      = shapeCast S32x256x1024 (m ((c.tc : Thread nD τ).loc main_arg0)) shapeCasts_S32x256x32x32_S32x256x1024 := by
  show StableHlo.after hostOps0 (fun b => m (c, b)) (Proc.devRef .tc main_v0) = _
  after_results
  rfl

/-- The program's result is the call's result array, as the four points leave it, viewed [32, 256, 32, 32]. -/
theorem tail_eq (c : Dev nD) :
    (Pipeline.afterTail₀ cfgs (dats m) 0 (V0 m) [hostOps1] c main_v2 : S32x256x32x32.Idx → EReal)
      = shapeCast S32x256x32x32 ((dats m 0 c).arrAt 3 cfg0.N) shapeCasts_S32x256x1024_S32x256x32x32 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 3 cfg0.N :=
    Pipeline.withArrays_arr spec0 launch0.win.arr_inj c _ _ 3
  rw [e]
  rfl

end Cert.KernelIdeal.Hand

end
-- ==== Proof.KRun.lean ====
/-
  The run of the program, read: every weakly fair execution terminates with the result buffer at `Spec.out4` of the
  three arguments — the argument viewed [32, 256, 1024], each entry scaled by its channel's gate, viewed
  [32, 256, 32, 32] again — and with the three arguments as launched.
-/
import proofs.«100125_g2000005796405708_pallasbulk_332_6_alg».proof.Proof.KBlocks
import proofs.«100125_g2000005796405708_pallasbulk_332_6_alg».proof.Proof.KHost

noncomputable section

namespace Cert.KernelIdeal.Hand

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The program's result as a function of the launch memory: the closing view of the call's result, the call's result
    as `Spec.out3` of what the call finds, and what the call finds as the opening view of the first argument and the
    two weight arguments untouched. -/
theorem out_eq (c : Dev nD) :
    Pipeline.afterTail₀ cfgs (dats m) 0 (V0 m) [hostOps1] c main_v2
      = Cert.Spec.out4 Facts₀.shapeCasts_S32x256x32x32_S32x256x1024 Facts₀.shapeCasts_S32x256x1024_S32x256x32x32
          (m ((c.tc : Thread nD τ).loc main_arg0)) (m ((c.tc : Thread nD τ).loc main_arg1)) (m ((c.tc : Thread nD τ).loc main_arg2)) := by
  refine (tail_eq m c).trans ?_
  rw [final, V_main_v0, V_main_arg1, V_main_arg2]
  rfl

/-- THE RUN. The result buffer is no operand of the call and is written by the closing view only; the first argument
    is no operand of the call either and nothing writes it; the two weight arguments are operands the call only reads. -/
theorem run :
    θ_run (defs (F := Ideal)) (onTc (τ := τ) (main (F := Ideal))) ⟨m, fun _ => 0, ρ⟩ (fun r => ∀ c : Dev nD,
      r.2.mem ((c.tc : Thread nD τ).loc main_v2) = Cert.Spec.out4 Facts₀.shapeCasts_S32x256x32x32_S32x256x1024 Facts₀.shapeCasts_S32x256x1024_S32x256x32x32 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v2 (Pipeline.mem_restRefs_of main_v2 (by decide) (by decide))).trans (out_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.RGate.lean ====
/-
  The reference's gate region. It has no grid: every window's block is its whole array, so the one point's write-back is
  the body's payload of the three whole input arrays — the channel sums [32, 256, 1] and the two transposed weight
  matrices [256, 16], [16, 256] — and the output array [32, 256, 1] ends holding exactly that payload. Read at entry
  (b, c, 0) the payload is
      logistic (Σ_j max (Σ_k (sums[b, k, 0] · 2⁻¹⁰) · w1ᵀ[k, j]) 0 · w2ᵀ[j, c]):
  the two matrix products each contract the left operand's axis 1 with the right operand's axis 0, accumulate into the
  zero splat (so each is the plain sum over the contracted coordinate), and the casts [32,256,1] → [32,256] → … → [32,256,1]
  keep the row-major position.
-/
import proofs.«100125_g2000005796405708_pallasbulk_332_6_alg».proof.Proof.Gen.ReferenceIdeal.Frame
import proofs.«100125_g2000005796405708_pallasbulk_332_6_alg».proof.Proof.Spec
import proofs.«100125_g2000005796405708_pallasbulk_332_6_alg».proof.Proof.LibDotSingle
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Hand
open Cert.ReferenceIdeal Cert.ReferenceIdeal.Gen Cert.LibDotSingle

variable (V : (c : Dev nD) → (b : Ref sig .tc) → Buf (Elt Ideal) ((c : Thread nD τ).loc b))

theorem gz3 : (![0, 0, 0] : Fin 3 → Nat) = fun _ => 0 := funext fun a => by fin_cases a <;> rfl
theorem gz2 : (![0, 0] : Fin 2 → Nat) = fun _ => 0 := funext fun a => by fin_cases a <;> rfl

/-- What the one point writes back is the payload of the whole input arrays, read through the whole output array. -/
theorem gate_flushed (c : Dev nD) (t : Fin cfg1.N) :
    (dat1 V c).flushed 3 t = ((cfg1.win 3).blk t).view.read (Elt Ideal) (k1_pay1 (F := Ideal) (V c main_v1) (V c main_v2) (V c main_v3)) := by
  show (cfg1.win 3).cut (grid1.coords t) ((dat1 V c).after 3 t) = _
  rw [after1_3]
  unfold out1_3
  rw [View.canon_unit_zero gz3]
  simp only [View.ld_unit_zero (S := S32x256x1) gz3, View.ld_unit_zero (S := S256x16) gz2, View.ld_unit_zero (S := S16x256) gz2]
  unfold iblk1
  have e0 : View.read (Elt Ideal) ((cfg1.win 0).blk t).view (V c (Pipeline.arrRef spec1 0)) = V c main_v1 :=
    Memref.read_access_unit_zero (Elt Ideal) main_v1 (off := fun a => win1_0.index t a * main_v1.ty.shape.size a)
      (funext fun a => Nat.zero_mul _) (fun a => by rw [show win1_0.index t a = 0 from rfl, Nat.zero_mul, Nat.zero_add]) (V c main_v1)
  have e1 : View.read (Elt Ideal) ((cfg1.win 1).blk t).view (V c (Pipeline.arrRef spec1 1)) = V c main_v2 :=
    Memref.read_access_unit_zero (Elt Ideal) main_v2 (off := fun a => win1_1.index t a * main_v2.ty.shape.size a)
      (funext fun a => Nat.zero_mul _) (fun a => by rw [show win1_1.index t a = 0 from rfl, Nat.zero_mul, Nat.zero_add]) (V c main_v2)
  have e2 : View.read (Elt Ideal) ((cfg1.win 2).blk t).view (V c (Pipeline.arrRef spec1 2)) = V c main_v3 :=
    Memref.read_access_unit_zero (Elt Ideal) main_v3 (off := fun a => win1_2.index t a * main_v3.ty.shape.size a)
      (funext fun a => Nat.zero_mul _) (fun a => by rw [show win1_2.index t a = 0 from rfl, Nat.zero_mul, Nat.zero_add]) (V c main_v3)
  rw [e0, e1, e2]
  exact (Memref.read_access_unit_zero (Elt Ideal) main_v4 (off := fun a => win1_3.index t a * main_v4.ty.shape.size a)
      (funext fun a => Nat.zero_mul _) (fun a => by rw [show win1_3.index t a = 0 from rfl, Nat.zero_mul, Nat.zero_add]) _).symm

/-- So the gate array ends holding the payload of the three arrays as the region finds them. -/
theorem gate_final (c : Dev nD) :
    (dat1 V c).arrAt 3 cfg1.N = k1_pay1 (F := Ideal) (V c main_v1) (V c main_v2) (V c main_v3) :=
  (dat1 V c).arrAt_eq_of_cover 3 _ (fun t _ => gate_flushed V c t) fun i =>
    ⟨t1_0, flush1_3 t1_0, by
      show i ∈ ((View.whole main_v4).slice (win1_3.rect t1_0)).set
      rw [View.set_slice_whole, Rect.mem_set_unit]
      intro a
      show 0 * _ ≤ (i a).val ∧ (i a).val < 0 * _ + _
      rw [Nat.zero_mul, Nat.zero_add]
      exact ⟨Nat.zero_le _, (i a).isLt⟩⟩

/-- The first product's left operand index: row `b`, contraction coordinate `k`. -/
theorem d1_lhs (b : Fin 32) (j : Fin 16) (k : Fin 256) :
    dot_S32x256_S256x16_S32x16_1_0_0_1_n_n.lhsIdx (ix2 b j) ((contrEquiv1 dot_S32x256_S256x16_S32x16_1_0_0_1_n_n 256 rfl rfl).symm k) = ix2 b k := by
  funext a; apply Fin.ext
  match a with
  | ⟨0, _⟩ => rfl
  | ⟨1, _⟩ => exact (DotDims.lhsIdx_val_of_single _ rfl _ _).trans (contrEquiv1_symm_val _ 256 rfl rfl k)

theorem d1_rhs (b : Fin 32) (j : Fin 16) (k : Fin 256) :
    dot_S32x256_S256x16_S32x16_1_0_0_1_n_n.rhsIdx (ix2 b j) ((contrEquiv1 dot_S32x256_S256x16_S32x16_1_0_0_1_n_n 256 rfl rfl).symm k) = ix2 k j := by
  funext a; apply Fin.ext
  match a with
  | ⟨0, _⟩ => exact (DotDims.rhsIdx_val_of_single _ rfl _ _).trans (contrEquiv1_symm_val _ 256 rfl rfl k)
  | ⟨1, _⟩ => rfl

theorem d2_lhs (b : Fin 32) (c : Fin 256) (j : Fin 16) :
    dot_S32x16_S16x256_S32x256_1_0_0_1_n_n.lhsIdx (ix2 b c) ((contrEquiv1 dot_S32x16_S16x256_S32x256_1_0_0_1_n_n 16 rfl rfl).symm j) = ix2 b j := by
  funext a; apply Fin.ext
  match a with
  | ⟨0, _⟩ => rfl
  | ⟨1, _⟩ => exact (DotDims.lhsIdx_val_of_single _ rfl _ _).trans (contrEquiv1_symm_val _ 16 rfl rfl j)

theorem d2_rhs (b : Fin 32) (c : Fin 256) (j : Fin 16) :
    dot_S32x16_S16x256_S32x256_1_0_0_1_n_n.rhsIdx (ix2 b c) ((contrEquiv1 dot_S32x16_S16x256_S32x256_1_0_0_1_n_n 16 rfl rfl).symm j) = ix2 j c := by
  funext a; apply Fin.ext
  match a with
  | ⟨0, _⟩ => exact (DotDims.rhsIdx_val_of_single _ rfl _ _).trans (contrEquiv1_symm_val _ 16 rfl rfl j)
  | ⟨1, _⟩ => rfl

theorem gate_pay (v0 : Vec Ideal S32x256x1 .f32) (v5 : Vec Ideal S256x16 .f32) (v10 : Vec Ideal S16x256 .f32)
    (b : Fin 32) (c : Fin 256) (z : Fin 1) :
    k1_pay1 (F := Ideal) v0 v5 v10 (ix3 b c z)
      = Ideal.logistic (∑ j : Fin 16, max (∑ k : Fin 256, (v0 (ix3 b k 0) * Cert.Spec.inv) * v5 (ix2 k j)) Cert.Spec.zero * v10 (ix2 j c)) := by
  unfold k1_pay1
  refine (shapeCast_apply _ _ (ix3 b c z) (ix2 b c) ?_).trans ?_
  · rw [Shape.rowMajor_val_two, Shape.rowMajor_val_three]
    show b.val * 256 + c.val = (b.val * 256 + c.val) * 1 + z.val
    have := z.isLt; omega
  refine congrArg Ideal.logistic ?_
  refine matmul_zero_single _ none 16 rfl rfl _ _ (ix2 b c) _ (fun j => v10 (ix2 j c)) (fun j => ?_) (fun j => ?_)
  · rw [d2_lhs]
    refine congrArg (fun y => max y Cert.Spec.zero) ?_
    refine matmul_zero_single _ none 256 rfl rfl _ _ (ix2 b j) (fun k => v0 (ix3 b k 0) * Cert.Spec.inv) (fun k => v5 (ix2 k j)) (fun k => ?_) (fun k => ?_)
    · rw [d1_lhs]
      refine congrArg (fun y => y * Cert.Spec.inv) ?_
      rw [shapeCast_self]
      refine shapeCast_apply _ _ (ix2 b k) (ix3 b k 0) ?_
      rw [Shape.rowMajor_val_two, Shape.rowMajor_val_three]
      show (b.val * 256 + k.val) * 1 + 0 = b.val * 256 + k.val
      omega
    · rw [d1_rhs, shapeCast_self]
  · rw [d2_rhs, shapeCast_self]

end Cert.ReferenceIdeal.Hand

end
-- ==== Proof.RPool.lean ====
/-
  The pooling region of the reference. Its grid has 32 points, one per batch row. At point t the body holds the
  [1, 256, 1024] block of batch row t and a [1, 256, 1] output block: it fills the output block with zeros, loads it back,
  adds to it the sum of the input block over its last axis (the 1024 positions of each channel), and stores the result.
  So the output block at (0, k, 0) is 0 + Σ_s x[t, k, s], and after the 32 points the [32, 256, 1] array holds at (b, k, 0)
  the sum of channel k of batch row b: `Cert.Spec.rowSum`. Everything is stated for arbitrary contents V of the buffers
  when the region is entered.
-/
import proofs.«100125_g2000005796405708_pallasbulk_332_6_alg».proof.Proof.Gen.ReferenceIdeal.Frame
import proofs.«100125_g2000005796405708_pallasbulk_332_6_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.ReferenceIdeal.Hand

open Cert.ReferenceIdeal Cert.ReferenceIdeal.Gen

variable {F : FTy → Type} [FloatOps F]

/-- The zero offsets of a whole-buffer access. -/
theorem hz3 : (![0, 0, 0] : Fin 3 → Nat) = fun _ => 0 := funext fun a => by fin_cases a <;> rfl

/-- The body's two stores both fill the whole output block, so the last one's payload is what the block holds; the
    accumulator it loads back is what the zeroing store left. -/
theorem pool_piece (c : Dev nD) (i : grid0.Coords) (arg2 : Memref sig .tc .vmem S1x256x1024 .f32) (harg2 : arg2.IsWhole)
    (arg3 : Memref sig .tc .vmem S1x256x1 .f32) (harg3 : arg3.IsWhole) (hc0 : cond0_0 i) (x0 : Vec F S1x256x1024 .f32) :
    out0_A_1 c i arg2 harg2 arg3 harg3 hc0 x0 = k0_pay2 (k0_pay1 (F := F)) x0 := by
  unfold out0_A_1
  rw [View.read_writes_eq_canon _ _ _ (cover0_A_1 c i arg2 harg2 arg3 harg3 hc0 x0)]
  unfold kernelRun0_A
  dsimp only
  try sl_unfold_words
  rw [View.canon_cons_unit_zero hz3, View.readCov_unit_zero (S := S1x256x1) _ hz3]
  simp only [View.readAt_eq_ld, harg2.read_unread, View.ld_unit_zero (S := S1x256x1024) hz3]

/-- The index a lane reduction of a [1, 256, 1024] block reads at result index (0, k) and lane s is (0, k, s). -/
theorem lift_ix (h : Shape.Reduces S1x256x1024 [2] S1x256) (k : Fin 256) (s : Fin 1024) :
    h.lift (ix2 (0 : Fin 1) k) s = ix3 (0 : Fin 1) k s := by
  funext a; apply Fin.ext
  match a with
  | ⟨0, _⟩ => rfl
  | ⟨1, _⟩ => rfl
  | ⟨2, _⟩ => rfl

/-- The block's entry for channel k: zero plus the sum of the channel's 1024 lanes. -/
theorem pool_pay (x0 : Vec Ideal S1x256x1024 .f32) (k : Fin 256) :
    k0_pay2 (k0_pay1 (F := Ideal)) x0 (ix3 (0 : Fin 1) k (0 : Fin 1)) = ∑ s : Fin 1024, x0 (ix3 (0 : Fin 1) k s) := by
  unfold k0_pay2 k0_pay1
  simp only [shapeCast_self, addf_apply, broadcast_apply]
  show Ideal.ofBits .f32 0x00000000#32 + _ = _
  rw [Ideal.ofBits_zero_f32, zero_add]
  refine (shapeCast_apply _ _ (ix3 (0 : Fin 1) k (0 : Fin 1)) (ix2 (0 : Fin 1) k) ?_).trans ?_
  · rw [Shape.rowMajor_val_two, Shape.rowMajor_val_three]
    simp
  · refine (Ideal.multiReduction_add_single x0 _ _ _ _ (ix2 (0 : Fin 1) k)).trans ?_
    exact Finset.sum_congr rfl fun s _ => congrArg x0 (lift_ix _ k s)

/-- The printed index maps decided over the 32 × 1 grid: point t fetches batch row t of the input (all channels, all
    lanes) and writes back batch row t of the output. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

section
variable (V : (c : Dev nD) → (b : Ref sig .tc) → Buf (Elt Ideal) ((c : Thread nD τ).loc b))

/-- The input block of point t at (0, k, s) is the array at (t, k, s): a block's coordinate is its index times its size plus
    the coordinate inside it. -/
theorem iblk0_apply (c : Dev nD) (t : Fin cfg0.N) (b : Fin 32) (hb : b.val = t.val) (k : Fin 256) (s : Fin 1024) :
    (iblk0 (F := Ideal) V c 0 t : Vec Ideal S1x256x1024 .f32) (ix3 (0 : Fin 1) k s)
      = (V c main_v0 : S32x256x1024.Idx → EReal) (ix3 b k s) := by
  obtain ⟨e0, e1, e2, -, -, -⟩ := idx_facts0 t
  unfold iblk0
  rw [View.read_apply]
  show V c main_v0 _ = V c main_v0 _
  congr 1
  funext a; apply Fin.ext
  match a with
  | ⟨0, _⟩ => show win0_0.index t (0 : Fin 3) * 1 + 1 * 0 = b.val; omega
  | ⟨1, _⟩ => show win0_0.index t (1 : Fin 3) * 256 + 1 * k.val = k.val; omega
  | ⟨2, _⟩ => show win0_0.index t (2 : Fin 3) * 1024 + 1 * s.val = s.val; omega

/-- What point t leaves at entry y of its output block is the channel sum of batch row t, read at any array index i
    with the same batch row and channel. -/
theorem pool_block (c : Dev nD) (t : Fin cfg0.N) (y : S1x256x1.Idx) (i : S32x256x1.Idx)
    (h0 : (i 0).val = t.val) (h1 : (i 1).val = (y 1).val) :
    k0_pay2 (k0_pay1 (F := Ideal)) (iblk0 (F := Ideal) V c 0 t) y = Cert.Spec.rowSum (V c main_v0) (i 0) (i 1) := by
  obtain ⟨p, q, r, rfl⟩ : ∃ (p : Fin 1) (q : Fin 256) (r : Fin 1), y = ix3 p q r := ⟨y 0, y 1, y 2, eq_ix3 y⟩
  obtain rfl : p = 0 := Subsingleton.elim _ _
  obtain rfl : r = 0 := Subsingleton.elim _ _
  have hq : q = i 1 := Fin.ext h1.symm
  subst hq
  refine (pool_pay (iblk0 (F := Ideal) V c 0 t) (i 1)).trans ?_
  unfold Cert.Spec.rowSum
  exact Finset.sum_congr rfl fun s _ => iblk0_apply V c t (i 0) h0 (i 1) s

/-- What point t writes back is block t of the channel sums. -/
theorem pool_flushed (c : Dev nD) (t : Fin cfg0.N) :
    (dat0 (F := Ideal) V c).flushed 1 t
      = ((cfg0.win 1).blk t).view.read (Elt Ideal) (fun i : S32x256x1.Idx => Cert.Spec.rowSum (V c main_v0) (i 0) (i 1)) := by
  obtain ⟨-, -, -, e0, e1, e2⟩ := idx_facts0 t
  show (cfg0.win 1).cut (grid0.coords t) ((dat0 (F := Ideal) V c).after 1 t) = _
  rw [after0_1]
  unfold outsAt0
  rw [pool_piece]
  funext j
  refine pool_block V c t ((cfg0.win 1).xinj (grid0.coords t) j) (((cfg0.win 1).blk t).view.emb j) ?_ ?_
  · show win0_1.index t (0 : Fin 3) * 1 + 1 * (j 0).val = t.val
    have hj : (j 0).val < 1 := (j 0).isLt
    omega
  · show win0_1.index t (1 : Fin 3) * 256 + 1 * (j 1).val = (j 1).val
    omega

/-- Every entry of the [32, 256, 1] array lies in the block of the point of its batch row. -/
theorem pool_cover (i : S32x256x1.Idx) :
    ∃ t : Fin cfg0.N, (cfg0.win 1).flush t = true ∧ i ∈ ((cfg0.win 1).blk t).view.set := by
  have hN : cfg0.N = 32 := N_0
  have h0 : (i 0 : Nat) < 32 := (i 0).isLt
  have h1 : (i 1 : Nat) < 256 := (i 1).isLt
  have h2 : (i 2 : Nat) < 1 := (i 2).isLt
  obtain ⟨t, ht⟩ : ∃ t : Fin cfg0.N, t.val = (i 0 : Nat) := ⟨⟨(i 0 : Nat), by omega⟩, rfl⟩
  obtain ⟨-, -, -, e0, e1, e2⟩ := idx_facts0 t
  refine ⟨t, flush0_1 t, ?_⟩
  show i ∈ ((View.whole main_v1).slice (win0_1.rect t)).set
  rw [View.set_slice_whole, Rect.mem_set_unit]
  intro a
  match a with
  | ⟨0, _⟩ =>
    show win0_1.index t (0 : Fin 3) * 1 ≤ (i 0 : Nat) ∧ (i 0 : Nat) < win0_1.index t (0 : Fin 3) * 1 + 1
    omega
  | ⟨1, _⟩ =>
    show win0_1.index t (1 : Fin 3) * 256 ≤ (i 1 : Nat) ∧ (i 1 : Nat) < win0_1.index t (1 : Fin 3) * 256 + 256
    omega
  | ⟨2, _⟩ =>
    show win0_1.index t (2 : Fin 3) * 1 ≤ (i 2 : Nat) ∧ (i 2 : Nat) < win0_1.index t (2 : Fin 3) * 1 + 1
    omega

/-- After the pooling region the [32, 256, 1] array holds, at (b, k, 0), the sum of channel k of batch row b over its 1024
    positions. -/
theorem pool_final (c : Dev nD) :
    (Gen.dat0 (F := Ideal) V c).arrAt 1 cfg0.N
      = fun i : S32x256x1.Idx => Cert.Spec.rowSum (V c main_v0) (i 0) (i 1) :=
  (dat0 (F := Ideal) V c).arrAt_eq_of_cover 1 _ (fun t _ => pool_flushed V c t) pool_cover

end

end Cert.ReferenceIdeal.Hand

end
-- ==== Proof.RScale.lean ====
/-
  The scaling region of the reference. Its grid has 32 points, one per batch row. At point t the body holds the
  [1, 256, 1024] block of batch row t of the input, the [1, 256, 1] column of gates of batch row t, and a [1, 256, 1024]
  output block: it repeats the gate column along the 1024 positions and stores the entrywise product. So the output
  block at (0, k, s) is x[t, k, s] · g[t, k, 0], and after the 32 points the [32, 256, 1024] output array holds at (b, k, s)
  the input entry there times the gate array's entry (b, k, 0). Everything is stated for arbitrary contents V of the
  buffers when the region is entered. The product is written with the multiplication of the extended reals named
  explicitly, because an entry of a buffer is an extended real only after its element type is unfolded.
-/
import proofs.«100125_g2000005796405708_pallasbulk_332_6_alg».proof.Proof.Gen.ReferenceIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.ReferenceIdeal.Hand

open Cert.ReferenceIdeal Cert.ReferenceIdeal.Gen

variable {F : FTy → Type} [FloatOps F]

/-- The zero offsets of a whole-buffer access. -/
theorem hz3s : (![0, 0, 0] : Fin 3 → Nat) = fun _ => 0 := funext fun a => by fin_cases a <;> rfl

/-- The body's product at (0, k, s): the input entry times the gate column's entry for channel k, the [1, 256, 1] column
    being repeated along the 1024 positions. -/
theorem scale_pay (x0 : Vec Ideal S1x256x1024 .f32) (x1 : Vec Ideal S1x256x1 .f32) (k : Fin 256) (s : Fin 1024) :
    k2_pay1 x0 x1 (ix3 (0 : Fin 1) k s) = x0 (ix3 (0 : Fin 1) k s) * x1 (ix3 (0 : Fin 1) k (0 : Fin 1)) := by
  unfold k2_pay1
  simp only [shapeCast_self, mulf_apply]
  refine congrArg (x0 (ix3 (0 : Fin 1) k s) * ·) ?_
  refine broadcastTo_apply x1 _ (ix3 (0 : Fin 1) k s) (ix3 (0 : Fin 1) k (0 : Fin 1)) ?_
  intro a
  match a with
  | ⟨0, _⟩ => rfl
  | ⟨1, _⟩ => rfl
  | ⟨2, _⟩ => rfl

/-- The printed index maps decided over the 32 × 1 grid: at point t all three windows sit at batch row t. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

section
variable (V : (c : Dev nD) → (b : Ref sig .tc) → Buf (Elt Ideal) ((c : Thread nD τ).loc b))

/-- The input block of point t at (0, k, s) is the input array at (t, k, s). -/
theorem iblk2_0_apply (c : Dev nD) (t : Fin cfg2.N) (b : Fin 32) (hb : b.val = t.val) (k : Fin 256) (s : Fin 1024) :
    (iblk2 (F := Ideal) V c 0 t : Vec Ideal S1x256x1024 .f32) (ix3 (0 : Fin 1) k s)
      = (V c main_v0 : S32x256x1024.Idx → EReal) (ix3 b k s) := by
  obtain ⟨e0, e1, e2, -⟩ := idx_facts2 t
  unfold iblk2
  rw [View.read_apply]
  show V c main_v0 _ = V c main_v0 _
  congr 1
  funext a; apply Fin.ext
  match a with
  | ⟨0, _⟩ => show win2_0.index t (0 : Fin 3) * 1 + 1 * 0 = b.val; omega
  | ⟨1, _⟩ => show win2_0.index t (1 : Fin 3) * 256 + 1 * k.val = k.val; omega
  | ⟨2, _⟩ => show win2_0.index t (2 : Fin 3) * 1024 + 1 * s.val = s.val; omega

/-- The gate block of point t at (0, k, 0) is the gate array at (t, k, 0). -/
theorem iblk2_1_apply (c : Dev nD) (t : Fin cfg2.N) (b : Fin 32) (hb : b.val = t.val) (k : Fin 256) :
    (iblk2 (F := Ideal) V c 1 t : Vec Ideal S1x256x1 .f32) (ix3 (0 : Fin 1) k (0 : Fin 1))
      = (V c main_v4 : S32x256x1.Idx → EReal) (ix3 b k (0 : Fin 1)) := by
  obtain ⟨-, -, -, e0, e1, e2, -⟩ := idx_facts2 t
  unfold iblk2
  rw [View.read_apply]
  show V c main_v4 _ = V c main_v4 _
  congr 1
  funext a; apply Fin.ext
  match a with
  | ⟨0, _⟩ => show win2_1.index t (0 : Fin 3) * 1 + 1 * 0 = b.val; omega
  | ⟨1, _⟩ => show win2_1.index t (1 : Fin 3) * 256 + 1 * k.val = k.val; omega
  | ⟨2, _⟩ => show win2_1.index t (2 : Fin 3) * 1 + 1 * 0 = 0; omega

/-- What point t leaves at entry y of its output block: the input entry times its channel's gate, read at any array
    index i with batch row t and the channel and position of y. -/
theorem scale_block (c : Dev nD) (t : Fin cfg2.N) (y : S1x256x1024.Idx) (i : S32x256x1024.Idx)
    (h0 : (i 0).val = t.val) (h1 : (i 1).val = (y 1).val) (h2 : (i 2).val = (y 2).val) :
    k2_pay1 (iblk2 (F := Ideal) V c 0 t) (iblk2 (F := Ideal) V c 1 t) y
      = HMul.hMul (α := EReal) (β := EReal) (γ := EReal) ((V c main_v0 : S32x256x1024.Idx → EReal) i) ((V c main_v4 : S32x256x1.Idx → EReal) (ix3 (i 0) (i 1) (0 : Fin 1))) := by
  obtain ⟨p, q, r, rfl⟩ : ∃ (p : Fin 1) (q : Fin 256) (r : Fin 1024), y = ix3 p q r := ⟨y 0, y 1, y 2, eq_ix3 y⟩
  obtain rfl : p = 0 := Subsingleton.elim _ _
  have hq : q = i 1 := Fin.ext h1.symm
  have hr : r = i 2 := Fin.ext h2.symm
  subst hq hr
  refine (scale_pay (iblk2 (F := Ideal) V c 0 t) (iblk2 (F := Ideal) V c 1 t) (i 1) (i 2)).trans ?_
  exact congrArg₂ (· * ·)
    ((iblk2_0_apply V c t (i 0) h0 (i 1) (i 2)).trans (congrArg (V c main_v0 : S32x256x1024.Idx → EReal) (eq_ix3 i).symm))
    (iblk2_1_apply V c t (i 0) h0 (i 1))

/-- What point t writes back is block t of the scaled array. -/
theorem scale_flushed (c : Dev nD) (t : Fin cfg2.N) :
    (dat2 (F := Ideal) V c).flushed 2 t
      = ((cfg2.win 2).blk t).view.read (Elt Ideal) (fun i : S32x256x1024.Idx =>
          HMul.hMul (α := EReal) (β := EReal) (γ := EReal) ((V c main_v0 : S32x256x1024.Idx → EReal) i) ((V c main_v4 : S32x256x1.Idx → EReal) (ix3 (i 0) (i 1) (0 : Fin 1)))) := by
  obtain ⟨-, -, -, -, -, -, e0, e1, e2⟩ := idx_facts2 t
  show (cfg2.win 2).cut (grid2.coords t) ((dat2 (F := Ideal) V c).after 2 t) = _
  rw [after2_2]
  unfold out2_2
  rw [View.canon_unit_zero hz3s]
  simp only [View.ld_unit_zero (S := S1x256x1024) hz3s, View.ld_unit_zero (S := S1x256x1) hz3s]
  funext j
  refine scale_block V c t ((cfg2.win 2).xinj (grid2.coords t) j) (((cfg2.win 2).blk t).view.emb j) ?_ ?_ ?_
  · show win2_2.index t (0 : Fin 3) * 1 + 1 * (j 0).val = t.val
    have hj : (j 0).val < 1 := (j 0).isLt
    omega
  · show win2_2.index t (1 : Fin 3) * 256 + 1 * (j 1).val = (j 1).val
    omega
  · show win2_2.index t (2 : Fin 3) * 1024 + 1 * (j 2).val = (j 2).val
    omega

/-- Every entry of the [32, 256, 1024] array lies in the block of the point of its batch row. -/
theorem scale_cover (i : S32x256x1024.Idx) :
    ∃ t : Fin cfg2.N, (cfg2.win 2).flush t = true ∧ i ∈ ((cfg2.win 2).blk t).view.set := by
  have hN : cfg2.N = 32 := N_2
  have h0 : (i 0 : Nat) < 32 := (i 0).isLt
  have h1 : (i 1 : Nat) < 256 := (i 1).isLt
  have h2 : (i 2 : Nat) < 1024 := (i 2).isLt
  obtain ⟨t, ht⟩ : ∃ t : Fin cfg2.N, t.val = (i 0 : Nat) := ⟨⟨(i 0 : Nat), by omega⟩, rfl⟩
  obtain ⟨-, -, -, -, -, -, e0, e1, e2⟩ := idx_facts2 t
  refine ⟨t, flush2_2 t, ?_⟩
  show i ∈ ((View.whole main_v5).slice (win2_2.rect t)).set
  rw [View.set_slice_whole, Rect.mem_set_unit]
  intro a
  match a with
  | ⟨0, _⟩ =>
    show win2_2.index t (0 : Fin 3) * 1 ≤ (i 0 : Nat) ∧ (i 0 : Nat) < win2_2.index t (0 : Fin 3) * 1 + 1
    omega
  | ⟨1, _⟩ =>
    show win2_2.index t (1 : Fin 3) * 256 ≤ (i 1 : Nat) ∧ (i 1 : Nat) < win2_2.index t (1 : Fin 3) * 256 + 256
    omega
  | ⟨2, _⟩ =>
    show win2_2.index t (2 : Fin 3) * 1024 ≤ (i 2 : Nat) ∧ (i 2 : Nat) < win2_2.index t (2 : Fin 3) * 1024 + 1024
    omega

/-- After the scaling region the [32, 256, 1024] output array holds, at (b, k, s), the input entry there times the gate
    array's entry (b, k, 0). -/
theorem scale_final (c : Dev nD) :
    (Gen.dat2 (F := Ideal) V c).arrAt 2 cfg2.N
      = fun i : S32x256x1024.Idx =>
          HMul.hMul (α := EReal) (β := EReal) (γ := EReal) ((V c main_v0 : S32x256x1024.Idx → EReal) i) ((V c main_v4 : S32x256x1.Idx → EReal) (ix3 (i 0) (i 1) (0 : Fin 1))) :=
  (dat2 (F := Ideal) V c).arrAt_eq_of_cover 2 _ (fun t _ => scale_flushed V c t) scale_cover

end

end Cert.ReferenceIdeal.Hand

end
-- ==== Proof.RRun.lean ====
/-
  The reference's run, read whole. Its @main is six segments — a reshape, the pooling region, two transposes, the gate
  region, the scaling region, a reshape — and every weakly fair execution ends with EVERY unscoped buffer of a core at the
  contents the segments' fold `Gen.W6` names: a stretch of host operations applies its operations, a region leaves its
  arrays at what its write-backs hold and every other buffer as entered. The value claim needs the result buffer as well as
  the three arguments, so the last state is read here at every unscoped buffer.
-/
import proofs.«100125_g2000005796405708_pallasbulk_332_6_alg».proof.Proof.Gen.ReferenceIdeal.Frame

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with every unscoped buffer `b` of every
    core `c` at `Gen.W6 m ρ c b`: the launch deals the first thread state, the six segments chain from one boundary's
    contents to the next, and the last thread state is read against the final memory buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- So a TensorCore buffer that is not scoped ends at the fold's contents. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem (((c : Thread nD τ)).1, Proc.devRef .tc b) = W6 m ρ c (Proc.devRef .tc b)) :=
  (θ_run defs _ _).mono (fun _ h c => h c _ (mem_uc b hb)) (run_all m ρ)

end Cert.ReferenceIdeal.Hand

end
-- ==== Proof.RChain.lean ====
/-
  The reference's result, read through its six segments. The fold of buffer contents (`Gen.W1` … `Gen.W6`) is walked
  forward one buffer at a time: the first reshape views the argument [32, 256, 1024]; the pooling region leaves the channel
  sums; the two transposes leave w1ᵀ and w2ᵀ; the gate region leaves its payload of those three; the scaling region leaves
  each entry of the viewed argument times its channel's gate; the last reshape views that [32, 256, 32, 32]. A buffer a segment does
  not write keeps its contents (a region writes only its output arrays, a host operation only its result buffer). The end is
  `Cert.Spec.out4` of the three arguments.
-/
import proofs.«100125_g2000005796405708_pallasbulk_332_6_alg».proof.Proof.Gen.ReferenceIdeal.Frame
import proofs.«100125_g2000005796405708_pallasbulk_332_6_alg».proof.Proof.Spec
import proofs.«100125_g2000005796405708_pallasbulk_332_6_alg».proof.Proof.RGate
import proofs.«100125_g2000005796405708_pallasbulk_332_6_alg».proof.Proof.RPool
import proofs.«100125_g2000005796405708_pallasbulk_332_6_alg».proof.Proof.RScale
import proofs.«100125_g2000005796405708_pallasbulk_332_6_alg».proof.Proof.RRun
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.Hand
open Cert.ReferenceIdeal Cert.ReferenceIdeal.Gen

variable (m : (ℓ : Loc nD τ sig) → Buf (Elt Ideal) ℓ) (ρ : Dev nD → PrngReg)

/-- The argument viewed [32, 256, 1024]. -/
abbrev x3 (c : Dev nD) : S32x256x1024.Idx → EReal :=
  shapeCast S32x256x1024 (m ((c : Thread nD τ).loc main_arg0)) shapeCasts_S32x256x32x32_S32x256x1024

theorem W1_v0 (c : Dev nD) : (W1 m ρ c (Proc.devRef .tc main_v0) : S32x256x1024.Idx → EReal) = x3 m c := by
  show StableHlo.after hostOps0 (W0 m ρ c) (Proc.devRef .tc main_v0) = _
  after_results
  rfl

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

/-- The pooling region only reads the viewed argument. -/
theorem W2_v0 (c : Dev nD) : (W2 m ρ c (Proc.devRef .tc main_v0) : S32x256x1024.Idx → EReal) = x3 m c :=
  ((W2_arr m ρ c 0).trans (((dat0 (V1 m ρ) c).arrAt_in 0 rfl _).trans (A_eq0 (V1 m ρ) c 0))).trans (W1_v0 m ρ c)

/-- … and leaves the channel sums in its output array. -/
theorem W2_v1 (c : Dev nD) : (W2 m ρ c (Proc.devRef .tc main_v1) : S32x256x1.Idx → EReal)
    = fun i => Cert.Spec.rowSum (x3 m c) (i 0) (i 1) := by
  refine ((W2_arr m ρ c 1).trans (pool_final (V1 m ρ) c)).trans ?_
  funext i
  exact congrArg (fun x => Cert.Spec.rowSum x (i 0) (i 1)) (W1_v0 m ρ c)

theorem W3_v0 (c : Dev nD) : (W3 m ρ c (Proc.devRef .tc main_v0) : S32x256x1024.Idx → EReal) = x3 m c := by
  refine Eq.trans ?_ (W2_v0 m ρ c)
  show StableHlo.after hostOps1 (W2 m ρ c) (Proc.devRef .tc main_v0) = _
  after_results

theorem W3_v1 (c : Dev nD) : (W3 m ρ c (Proc.devRef .tc main_v1) : S32x256x1.Idx → EReal)
    = fun i => Cert.Spec.rowSum (x3 m c) (i 0) (i 1) := by
  refine Eq.trans ?_ (W2_v1 m ρ c)
  show StableHlo.after hostOps1 (W2 m ρ c) (Proc.devRef .tc main_v1) = _
  after_results

theorem W3_v2 (c : Dev nD) : (W3 m ρ c (Proc.devRef .tc main_v2) : S256x16.Idx → EReal)
    = transpose S256x16 [1, 0] (m ((c : Thread nD τ).loc main_arg1) : S16x256.Idx → EReal) transposes_S16x256_S256x16_1_0 := by
  show StableHlo.after hostOps1 (W2 m ρ c) (Proc.devRef .tc main_v2) = _
  after_results
  rw [W2_of_ne m ρ c main_arg1 (by decide), W1_arg1]

theorem W3_v3 (c : Dev nD) : (W3 m ρ c (Proc.devRef .tc main_v3) : S16x256.Idx → EReal)
    = transpose S16x256 [1, 0] (m ((c : Thread nD τ).loc main_arg2) : S256x16.Idx → EReal) transposes_S256x16_S16x256_1_0 := by
  show StableHlo.after hostOps1 (W2 m ρ c) (Proc.devRef .tc main_v3) = _
  after_results
  rw [W2_of_ne m ρ c main_arg2 (by decide), W1_arg2]

/-- The gate region reads neither the viewed argument … -/
theorem W4_v0 (c : Dev nD) : (W4 m ρ c (Proc.devRef .tc main_v0) : S32x256x1024.Idx → EReal) = x3 m c :=
  (W4_of_ne m ρ c main_v0 (by decide)).trans (W3_v0 m ρ c)

/-- … and leaves its payload of the sums and the transposed weights in the gate array. -/
theorem W4_v4 (c : Dev nD) : (W4 m ρ c (Proc.devRef .tc main_v4) : S32x256x1.Idx → EReal)
    = k1_pay1 (F := Ideal) (fun i => Cert.Spec.rowSum (x3 m c) (i 0) (i 1))
        (transpose S256x16 [1, 0] (m ((c : Thread nD τ).loc main_arg1) : S16x256.Idx → EReal) transposes_S16x256_S256x16_1_0)
        (transpose S16x256 [1, 0] (m ((c : Thread nD τ).loc main_arg2) : S256x16.Idx → EReal) transposes_S256x16_S16x256_1_0) := by
  refine ((W4_arr m ρ c 3).trans (gate_final (V3 m ρ) c)).trans ?_
  show k1_pay1 (W3 m ρ c (Proc.devRef .tc main_v1)) (W3 m ρ c (Proc.devRef .tc main_v2)) (W3 m ρ c (Proc.devRef .tc main_v3)) = _
  rw [W3_v1, W3_v2, W3_v3]
  rfl

/-- A transposed weight matrix read at an index. -/
theorem w1T_apply (w : S16x256.Idx → EReal) (k : Fin 256) (j : Fin 16) :
    transpose S256x16 [1, 0] w transposes_S16x256_S256x16_1_0 (ix2 k j) = w (ix2 j k) :=
  transpose_apply [1, 0] w _ (ix2 k j) (ix2 j k) fun b => by
    match b with
    | ⟨0, _⟩ => rfl
    | ⟨1, _⟩ => rfl

theorem w2T_apply (w : S256x16.Idx → EReal) (j : Fin 16) (c : Fin 256) :
    transpose S16x256 [1, 0] w transposes_S256x16_S16x256_1_0 (ix2 j c) = w (ix2 c j) :=
  transpose_apply [1, 0] w _ (ix2 j c) (ix2 c j) fun b => by
    match b with
    | ⟨0, _⟩ => rfl
    | ⟨1, _⟩ => rfl

/-- The scaling region multiplies each entry of the viewed argument by its channel's gate: the block on the [32, 256, 1024]
    view. The sums over the contracted coordinates are those of the specification term by term; the transposed weights
    read back as the weights. -/
theorem W5_v5 (c : Dev nD) : (W5 m ρ c (Proc.devRef .tc main_v5) : S32x256x1024.Idx → EReal)
    = Cert.Spec.out3 (x3 m c) (m ((c : Thread nD τ).loc main_arg1)) (m ((c : Thread nD τ).loc main_arg2)) := by
  refine ((W5_arr m ρ c 2).trans (scale_final (V4 m ρ) c)).trans ?_
  funext i
  obtain ⟨b, k, s, rfl⟩ : ∃ (b : Fin 32) (k : Fin 256) (s : Fin 1024), i = ix3 b k s := ⟨i 0, i 1, i 2, eq_ix3 i⟩
  show HMul.hMul (α := EReal) (β := EReal) (γ := EReal) ((W4 m ρ c (Proc.devRef .tc main_v0) : S32x256x1024.Idx → EReal) (ix3 b k s))
      ((W4 m ρ c (Proc.devRef .tc main_v4) : S32x256x1.Idx → EReal) (ix3 b k (0 : Fin 1)))
    = x3 m c (ix3 b k s) * Cert.Spec.gate (x3 m c) (m ((c : Thread nD τ).loc main_arg1)) (m ((c : Thread nD τ).loc main_arg2)) b k
  rw [W4_v0, W4_v4]
  refine congrArg (x3 m c (ix3 b k s) * ·) ?_
  refine (gate_pay _ _ _ b k 0).trans ?_
  unfold Cert.Spec.gate Cert.Spec.hidden
  refine congrArg Ideal.logistic (Finset.sum_congr rfl fun j _ => ?_)
  refine (congrArg (fun y => _ * y) (w2T_apply _ j k)).trans ?_
  refine congrArg (fun y => max y Cert.Spec.zero * _) (Finset.sum_congr rfl fun k' _ => ?_)
  exact congrArg (fun y => (Cert.Spec.rowSum (x3 m c) b k' * Cert.Spec.inv) * y) (w1T_apply _ k' j)

/-- The last reshape views that [32, 256, 32, 32] again: the reference's result is the block of the arguments. -/
theorem W6_v6 (c : Dev nD) : (W6 m ρ c (Proc.devRef .tc main_v6) : S32x256x32x32.Idx → EReal)
    = Cert.Spec.out4 shapeCasts_S32x256x32x32_S32x256x1024 shapeCasts_S32x256x1024_S32x256x32x32
        (m ((c : Thread nD τ).loc main_arg0)) (m ((c : Thread nD τ).loc main_arg1)) (m ((c : Thread nD τ).loc main_arg2)) := by
  refine Eq.trans ?_ (congrArg (fun y => shapeCast S32x256x32x32 y shapeCasts_S32x256x1024_S32x256x32x32) (W5_v5 m ρ c))
  show StableHlo.after hostOps3 (W5 m ρ c) (Proc.devRef .tc main_v6) = _
  after_results
  rfl

/-- THE REFERENCE'S RUN, READ: every weakly fair execution terminates with the result buffer at the block of the arguments
    and the arguments unchanged. -/
theorem run : θ_run (defs (F := Ideal)) (onTc (τ := τ) (main (F := Ideal))) ⟨m, fun _ => 0, ρ⟩ (fun r => ∀ c : Dev nD,
      r.2.mem ((c.tc : Thread nD τ).loc main_v6) = Cert.Spec.out4 shapeCasts_S32x256x32x32_S32x256x1024 shapeCasts_S32x256x1024_S32x256x32x32
          (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6 (by decide))).trans (W6_v6 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.ReferenceIdeal.Hand

end
-- ==== Proof.lean ====
/-
  The certificate of the fused squeeze-and-excitation kernel against the three-pass reference.

  For x : [32, 256, 32, 32], w1 : [16, 256], w2 : [256, 16], both programs view x as [32, 256, 1024] (batch, channel, position)
  and compute, on the extended reals,
      out[b, c, s] = x[b, c, s] · logistic (Σ_j max (Σ_k (Σ_s' x[b, k, s']) · 2⁻¹⁰ · w1[j, k], 0) · w2[c, j])
  (`Cert.Spec.out3`; 2⁻¹⁰ = 1/1024 is the same word in both programs and is never evaluated), then view the result
  [32, 256, 32, 32] again (`Cert.Spec.out4`).

  The kernel does it in one region over four slabs of eight batch rows: the gate of an entry reads its own batch row only,
  and a slab holds whole batch rows, so each slab's write-back is the slab of `out3`. The reference does it in three regions:
  channel sums added onto a zeroed block (0 + Σ = Σ), the gate from the sums and the TRANSPOSED weights (contracting
  w1ᵀ's axis 0 where the kernel contracts w1's axis 1: the same sum), and the entrywise scaling. No law here needs an entry to
  be finite — 0 + y = y and the re-indexing of a transpose hold on all extended reals — so the precondition is never opened.

  Frames: generated for all three programs. The idealization ledger is empty, so `preserves` is trivial.
-/
import proofs.«100125_g2000005796405708_pallasbulk_332_6_alg».proof.Defs
import proofs.«100125_g2000005796405708_pallasbulk_332_6_alg».proof.Proof.Gen.Kernel
import proofs.«100125_g2000005796405708_pallasbulk_332_6_alg».proof.Proof.Gen.Kernel.Frame
import proofs.«100125_g2000005796405708_pallasbulk_332_6_alg».proof.Proof.Gen.KernelIdeal
import proofs.«100125_g2000005796405708_pallasbulk_332_6_alg».proof.Proof.Gen.KernelIdeal.Frame
import proofs.«100125_g2000005796405708_pallasbulk_332_6_alg».proof.Proof.Gen.ReferenceIdeal
import proofs.«100125_g2000005796405708_pallasbulk_332_6_alg».proof.Proof.Gen.ReferenceIdeal.Frame
import proofs.«100125_g2000005796405708_pallasbulk_332_6_alg».proof.Proof.Gen.Pre_finite_inputs
import proofs.«100125_g2000005796405708_pallasbulk_332_6_alg».proof.Proof.Spec
import proofs.«100125_g2000005796405708_pallasbulk_332_6_alg».proof.Proof.KRun
import proofs.«100125_g2000005796405708_pallasbulk_332_6_alg».proof.Proof.RChain

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments. -/
theorem frame_ri : Cert.frame_ReferenceIdeal := fun m ρ _ => Cert.ReferenceIdeal.Gen.frame m ρ

/-- Both idealized programs end with their result buffer at `Cert.Spec.out4` of their arguments; the arguments agree. -/
theorem algebraic : Cert.algebraic_KernelIdeal_ReferenceIdeal := by
  intro m ρ m' ρ' _ hagree
  refine ⟨fun c => Cert.Spec.out4 Cert.KernelIdeal.Facts₀.shapeCasts_S32x256x32x32_S32x256x1024
      Cert.KernelIdeal.Facts₀.shapeCasts_S32x256x1024_S32x256x32x32
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
